-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x16 : Shape := ⟨2, ![4000000, 16]⟩
abbrev S_ : Shape := ⟨0, ![]⟩

class Facts : Prop where
  bcast_S_S4000000x16 : S_.BroadcastsInDim S4000000x16 (![] : Fin 0 → Fin S4000000x16.rank)
  reducesTo_S4000000x16_S_d0_1 : S4000000x16.ReducesTo [0, 1] S_
  h_S_ : 0 < S_.numel

variable [Facts]

def fn {F : FTy → Type} [FloatOps F] (main_arg0 : FVec F S4000000x16 .f32) : IVec S_ 1 :=
  let main_v0 : FVec F S4000000x16 .f32 := Host.absf main_arg0
  let main_cst : FVec F S_ .f32 := constant S_ .f32 0x7F800000#32
  let main_v1 : FVec F S4000000x16 .f32 := broadcastInDim S4000000x16 ![] bcast_S_S4000000x16 main_cst
  let main_v2 : IVec S4000000x16 1 := cmpf .olt main_v0 main_v1
  let main_c : IVec S_ 1 := constantI S_ 1 1#1
  let main_v3 : IVec S_ 1 := (fun x v => Host.reduce IntOp.andi x v reducesTo_S4000000x16_S_d0_1 h_S_) main_v2 main_c
  main_v3
-- ==== Kernel.lean ====
abbrev S4000000x16 : Shape := ⟨2, ![4000000, 16]⟩
abbrev S4000000x15 : Shape := ⟨2, ![4000000, 15]⟩
abbrev S8000x16 : Shape := ⟨2, ![8000, 16]⟩
abbrev S8000x15 : Shape := ⟨2, ![8000, 15]⟩
abbrev S8000x10 : Shape := ⟨2, ![8000, 10]⟩
abbrev S8000x4 : Shape := ⟨2, ![8000, 4]⟩
abbrev S8000 : Shape := ⟨1, ![8000]⟩
abbrev S8000x1 : Shape := ⟨2, ![8000, 1]⟩
abbrev S8000x5 : Shape := ⟨2, ![8000, 5]⟩

abbrev nBuf : Space → Nat
  | .hbm => 2
  | .vmem => 4
  | .smem => 0
  | _ => 0

abbrev bufTy : (tb : Table) → Fin (tcTables nBuf tb) → BufTy
  | .hbm, ⟨0, _⟩ => ⟨S4000000x16, .f32⟩
  | .hbm, ⟨1, _⟩ => ⟨S4000000x15, .f32⟩
  | .local _ .vmem, ⟨0, _⟩ => ⟨S8000x16, .f32⟩
  | .local _ .vmem, ⟨1, _⟩ => ⟨S8000x16, .f32⟩
  | .local _ .vmem, ⟨2, _⟩ => ⟨S8000x15, .f32⟩
  | .local _ .vmem, ⟨3, _⟩ => ⟨S8000x15, .f32⟩
  | _, _ => ⟨S4000000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x15 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8000x16_S8000x10_0_0 : ∀ a, (![0, 0] : Fin 2 → Nat) a + S8000x10.size a ≤ S8000x16.size a
  h_S8000x10 : 0 < S8000x10.numel
  inb_S8000x15_S8000x10_0_0 : ∀ a, (![0, 0] : Fin 2 → Nat) a + S8000x10.size a ≤ S8000x15.size a
  inb_S8000x16_S8000x4_0_10 : ∀ a, (![0, 10] : Fin 2 → Nat) a + S8000x4.size a ≤ S8000x16.size a
  h_S8000x4 : 0 < S8000x4.numel
  reduces_S8000x4_S8000 : S8000x4.Reduces [1] S8000
  shapeCasts_S8000_S8000x1 : S8000.ShapeCasts S8000x1
  broadcasts_S8000x1_S8000x4 : S8000x1.Broadcasts S8000x4
  slices_S8000x4_o0_0_S8000x1 : S8000x4.Slices ![0, 0] S8000x1
  slices_S8000x4_o0_1_S8000x1 : S8000x4.Slices ![0, 1] S8000x1
  slices_S8000x4_o0_2_S8000x1 : S8000x4.Slices ![0, 2] S8000x1
  slices_S8000x4_o0_3_S8000x1 : S8000x4.Slices ![0, 3] S8000x1
  concatenates_S8000x1_S8000x1_S8000x1_S8000x1_S8000x1_S8000x5_d1 : Shape.Concatenates [S8000x1, S8000x1, S8000x1, S8000x1, S8000x1] S8000x5 1
  inb_S8000x15_S8000x5_0_10 : ∀ a, (![0, 10] : Fin 2 → Nat) a + S8000x5.size a ≤ S8000x15.size a
  h_S8000x5 : 0 < S8000x5.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S4000000x16.size a
  hwx0_0 : ∀ i : grid0.Coords, EltTy.bits .f32 = 32 ∨ (Rect.block (s := S4000000x16) S8000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x15.size a ≤ S4000000x15.size a
  hwx0_1 : ∀ i : grid0.Coords, EltTy.bits .f32 = 32 ∨ (Rect.block (s := S4000000x15) S8000x15.size (cc0_transform_1 i) (hinb0_1 i)).WholeWords (EltTy.packing .f32)

variable [Facts₀]

abbrev win0_0 : Pipeline.Window sig grid0 :=
  Pipeline.Window.ofSpec (Memref.whole main_arg0) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8000x15.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x16 : Shape := ⟨2, ![4000000, 16]⟩
abbrev S4 : Shape := ⟨1, ![4]⟩
abbrev S_ : Shape := ⟨0, ![]⟩
abbrev S4x1 : Shape := ⟨2, ![4, 1]⟩
abbrev S4000000x4 : Shape := ⟨2, ![4000000, 4]⟩
abbrev S4000000 : Shape := ⟨1, ![4000000]⟩
abbrev S4000000x1 : Shape := ⟨2, ![4000000, 1]⟩
abbrev S4000000x5 : Shape := ⟨2, ![4000000, 5]⟩
abbrev S4000000x10 : Shape := ⟨2, ![4000000, 10]⟩
abbrev S4000000x15 : Shape := ⟨2, ![4000000, 15]⟩

abbrev nBuf : Space → Nat
  | .hbm => 54
  | .vmem => 0
  | .smem => 0
  | _ => 0

abbrev bufTy : (tb : Table) → Fin (tcTables nBuf tb) → BufTy
  | .hbm, ⟨0, _⟩ => ⟨S4000000x16, .f32⟩
  | .hbm, ⟨1, _⟩ => ⟨S4, .i32⟩
  | .hbm, ⟨2, _⟩ => ⟨S4, .i1⟩
  | .hbm, ⟨3, _⟩ => ⟨S_, .i32⟩
  | .hbm, ⟨4, _⟩ => ⟨S4, .i32⟩
  | .hbm, ⟨5, _⟩ => ⟨S4, .i32⟩
  | .hbm, ⟨6, _⟩ => ⟨S4, .i32⟩
  | .hbm, ⟨7, _⟩ => ⟨S4x1, .i32⟩
  | .hbm, ⟨8, _⟩ => ⟨S4000000x4, .f32⟩
  | .hbm, ⟨9, _⟩ => ⟨S4000000x4, .f32⟩
  | .hbm, ⟨10, _⟩ => ⟨S_, .f32⟩
  | .hbm, ⟨11, _⟩ => ⟨S4000000, .f32⟩
  | .hbm, ⟨12, _⟩ => ⟨S4000000x1, .f32⟩
  | .hbm, ⟨13, _⟩ => ⟨S4000000x4, .f32⟩
  | .hbm, ⟨14, _⟩ => ⟨S4000000x4, .f32⟩
  | .hbm, ⟨15, _⟩ => ⟨S4000000x1, .f32⟩
  | .hbm, ⟨16, _⟩ => ⟨S4000000, .f32⟩
  | .hbm, ⟨17, _⟩ => ⟨S4000000x1, .f32⟩
  | .hbm, ⟨18, _⟩ => ⟨S4000000, .f32⟩
  | .hbm, ⟨19, _⟩ => ⟨S4000000x1, .f32⟩
  | .hbm, ⟨20, _⟩ => ⟨S4000000, .f32⟩
  | .hbm, ⟨21, _⟩ => ⟨S4000000x1, .f32⟩
  | .hbm, ⟨22, _⟩ => ⟨S4000000, .f32⟩
  | .hbm, ⟨23, _⟩ => ⟨S4000000, .f32⟩
  | .hbm, ⟨24, _⟩ => ⟨S4000000, .f32⟩
  | .hbm, ⟨25, _⟩ => ⟨S4000000, .f32⟩
  | .hbm, ⟨26, _⟩ => ⟨S4000000, .f32⟩
  | .hbm, ⟨27, _⟩ => ⟨S4000000, .f32⟩
  | .hbm, ⟨28, _⟩ => ⟨S4000000, .f32⟩
  | .hbm, ⟨29, _⟩ => ⟨S4000000, .f32⟩
  | .hbm, ⟨30, _⟩ => ⟨S4000000x1, .f32⟩
  | .hbm, ⟨31, _⟩ => ⟨S4000000x1, .f32⟩
  | .hbm, ⟨32, _⟩ => ⟨S4000000x1, .f32⟩
  | .hbm, ⟨33, _⟩ => ⟨S4000000x1, .f32⟩
  | .hbm, ⟨34, _⟩ => ⟨S4000000x1, .f32⟩
  | .hbm, ⟨35, _⟩ => ⟨S4000000x5, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4000000x5, .f32⟩
  | .hbm, ⟨40, _⟩ => ⟨S4000000x5, .f32⟩
  | .hbm, ⟨41, _⟩ => ⟨S_, .f32⟩
  | .hbm, ⟨42, _⟩ => ⟨S4000000x5, .f32⟩
  | .hbm, ⟨43, _⟩ => ⟨S4000000x5, .f32⟩
  | .hbm, ⟨44, _⟩ => ⟨S_, .f32⟩
  | .hbm, ⟨45, _⟩ => ⟨S4000000x5, .f32⟩
  | .hbm, ⟨46, _⟩ => ⟨S4000000x5, .f32⟩
  | .hbm, ⟨47, _⟩ => ⟨S4000000x5, .f32⟩
  | .hbm, ⟨48, _⟩ => ⟨S4000000x5, .f32⟩
  | .hbm, ⟨49, _⟩ => ⟨S_, .f32⟩
  | .hbm, ⟨50, _⟩ => ⟨S4000000x5, .f32⟩
  | .hbm, ⟨51, _⟩ => ⟨S4000000x5, .f32⟩
  | .hbm, ⟨52, _⟩ => ⟨S4000000x10, .f32⟩
  | .hbm, ⟨53, _⟩ => ⟨S4000000x15, .f32⟩
  | _, _ => ⟨S4000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_2 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S4x1_0 : S4.BroadcastsInDim S4x1 (![0] : Fin 1 → Fin S4x1.rank)
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  concatenates_S4000000x1_S4000000x1_S4000000x1_S4000000x1_S4000000x1_S4000000x5_d1 : Shape.Concatenates [S4000000x1, S4000000x1, S4000000x1, S4000000x1, S4000000x1] S4000000x5 1
  bcast_S_S4000000x5 : S_.BroadcastsInDim S4000000x5 (![] : Fin 0 → Fin S4000000x5.rank)
  slices_S4000000x16_S4000000x10_0_0 : S4000000x16.Slices ![0, 0] S4000000x10
  concatenates_S4000000x10_S4000000x5_S4000000x15_d1 : Shape.Concatenates [S4000000x10, S4000000x5] S4000000x15 1
  gather_S4000000x16_S4x1_S4000000x4_0_1_n_n_1_1_40000001_wf : GatherDims.WF S4000000x16 S4x1 S4000000x4 [0] [1] [] [1] [] 1 ![4000000, 1]

variable [Facts₀]

def gather_S4000000x16_S4x1_S4000000x4_0_1_n_n_1_1_40000001 : GatherDims S4000000x16 S4x1 S4000000x4 where
  offsetDims := [0]
  collapsedSliceDims := [1]
  operandBatchingDims := []
  startIndicesBatchingDims := []
  startIndexMap := [1]
  indexVectorDim := 1
  sliceSizes := ![4000000, 1]
  wf := gather_S4000000x16_S4x1_S4000000x4_0_1_n_n_1_1_40000001_wf

class Facts : Prop extends Facts₀ where

variable [Facts]
-- ==== Proof.RowSpec.lean ====
/-
  The result, row by row. Every output row depends on its own input row only: of the sixteen entries of a row, the first
  ten are copied, and entries 10..13 (four logits) give five more numbers. The four logits are exponentiated and divided
  by the sum of the four exponentials (`soft`); from these four weights five ratios are formed (`ratio`: the first two
  weights themselves, then three quotients of a weight by a sum of two or three weights); each ratio is clamped into
  `[lo, hi]` and sent through the log-odds map `a ↦ 1 · log (a / (1 - a))` (`logit`). All operations are the exact ones on
  the extended reals; the three constants are kept as the binary words both programs spell.
-/
import Idealize.ShloMosaic.PureOps.Ideal
import Idealize.ShloMosaic.Lib.ValueIdx

noncomputable section

open scoped BigOperators

namespace Cert.RowSpec

open Idealize.ShloMosaic Idealize.ShloMosaic.ValueIdx

/-- The lower clamp bound (the single-precision word nearest to one millionth). -/
def lo : EReal := Ideal.ofBits .f32 0x358637BD#32
/-- The upper clamp bound (the single-precision word nearest to one minus one millionth). -/
def hi : EReal := Ideal.ofBits .f32 0x3F7FFFEF#32
/-- The word of `1.0`, kept as a word: it is never evaluated except where a quotient by it is removed. -/
def one : EReal := Ideal.ofBits .f32 0x3F800000#32

/-- Four logits to four weights: each exponential over the sum of the four. -/
def soft (z : Fin 4 → EReal) (j : Fin 4) : EReal := Ideal.div (Ideal.exp (z j)) (∑ k : Fin 4, Ideal.exp (z k))

/-- Four weights to five ratios. -/
def ratio (s : Fin 4 → EReal) : Fin 5 → EReal
  | ⟨0, _⟩ => s 0
  | ⟨1, _⟩ => s 1
  | ⟨2, _⟩ => Ideal.div (s 1) (s 1 + s 0)
  | ⟨3, _⟩ => Ideal.div (s 1) (s 1 + s 2 + s 3)
  | ⟨4, _⟩ => Ideal.div (s 3) (s 3 + s 2)

/-- Clamp into `[lo, hi]`, then the log-odds. -/
def logit (a : EReal) : EReal :=
  one * Ideal.log (Ideal.div (min hi (max lo a)) (one - min hi (max lo a)))

/-- The four logits of a row: its entries 10..13. -/
def logits (row : Fin 16 → EReal) (j : Fin 4) : EReal := row ⟨10 + j.val, by omega⟩

/-- One output row from one input row. -/
def rowOut (row : Fin 16 → EReal) (c : Fin 15) : EReal :=
  if h : c.val < 10 then row ⟨c.val, by omega⟩
  else logit (ratio (soft (logits row)) ⟨c.val - 10, by omega⟩)

theorem rowOut_lt (row : Fin 16 → EReal) (c : Fin 15) (h : c.val < 10) : rowOut row c = row ⟨c.val, by omega⟩ :=
  dif_pos h

theorem rowOut_ge (row : Fin 16 → EReal) (c : Fin 15) (h : ¬c.val < 10) :
    rowOut row c = logit (ratio (soft (logits row)) ⟨c.val - 10, by omega⟩) :=
  dif_neg h

/-- Division by the word of `1.0` changes nothing: `1.0` denotes the real one, and `x · 1⁻¹ = x` on every extended real. -/
theorem one_eq : one = 1 := by
  unfold one
  simp [Ideal.ofBits, Ideal.ieee, -EReal.coe_mul]; norm_num

theorem div_one (x : EReal) : Ideal.div x one = x := by
  rw [one_eq, Ideal.div, if_neg one_ne_zero, inv_one, mul_one]

/-- The whole array: row `r` of the result is `rowOut` of row `r` of the argument. -/
def G (x : (⟨2, ![4000000, 16]⟩ : Shape).Idx → EReal) (i : (⟨2, ![4000000, 15]⟩ : Shape).Idx) : EReal :=
  rowOut (fun k => x (ix2 (⟨(i 0).val, idx2_lt0 i⟩ : Fin 4000000) k)) ⟨(i 1).val, idx2_lt1 i⟩

theorem G_ix2 (x : (⟨2, ![4000000, 16]⟩ : Shape).Idx → EReal) (r : Fin 4000000) (c : Fin 15) :
    G x (ix2 r c) = rowOut (fun k => x (ix2 r k)) c := rfl

end Cert.RowSpec

end
-- ==== Proof.LibColumns.lean ====
/-
  Two-dimensional layout operations and row sums read at an index `(r, k)`, for matrices of `n` rows.
  Each lemma says which single entry of the operand an entry of the result is: a vector turned into a one-column matrix and
  back, a one-column matrix repeated along its rows, a scalar repeated everywhere, five one-column matrices put side by
  side, a ten-column and a five-column matrix put side by side, and the sum of a row's entries (a lane reduction, and the
  host's reduce, which adds the initial value). Nothing here depends on a program.
-/
import Idealize.ShloMosaic.Lib.Pipeline.Value
import Idealize.ShloMosaic.Lib.ValueIdx
import Idealize.ShloMosaic.PureOps.Ideal.Laws

noncomputable section

open scoped BigOperators

namespace Cert.LibColumns

open Idealize.ShloMosaic Idealize.ShloMosaic.ValueIdx

variable {α : Type}

/-- A vector of length `n` reshaped to an `n × 1` matrix: entry `(r, 0)` is entry `r`. -/
theorem shapeCast_vec_col {n : Nat} (v : (⟨1, ![n]⟩ : Shape).Idx → α)
    (h : (⟨1, ![n]⟩ : Shape).ShapeCasts ⟨2, ![n, 1]⟩) (r : Fin n) :
    shapeCast ⟨2, ![n, 1]⟩ v h (ix2 r 0) = v (ix1 r) :=
  shapeCast_apply v h (ix2 r 0) (ix1 r) (by
    rw [Shape.rowMajor_val_one, Shape.rowMajor_val_two]
    show r.val = r.val * 1 + 0
    omega)

/-- An `n × 1` matrix reshaped to a vector of length `n`: entry `r` is entry `(r, 0)`. -/
theorem shapeCast_col_vec {n : Nat} (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r 0) :=
  shapeCast_apply v h (ix1 r) (ix2 r 0) (by
    rw [Shape.rowMajor_val_one, Shape.rowMajor_val_two]
    show r.val * 1 + 0 = r.val
    omega)

/-- An `n × 1` matrix repeated to `n × m` (a vector broadcast): entry `(r, j)` is entry `(r, 0)`. -/
theorem broadcastTo_col {n m : Nat} (v : (⟨2, ![n, 1]⟩ : Shape).Idx → α)
    (h : (⟨2, ![n, 1]⟩ : Shape).Broadcasts ⟨2, ![n, m]⟩) (r : Fin n) (j : Fin m) :
    broadcastTo ⟨2, ![n, m]⟩ v h (ix2 r j) = v (ix2 r 0) :=
  broadcastTo_apply v h (ix2 r j) (ix2 r 0) (fun a => by
    match a with
    | ⟨0, _⟩ =>
      show r.val = if n = 1 then 0 else r.val
      have := r.isLt
      split <;> omega
    | ⟨1, _⟩ => exact (if_pos rfl).symm)

/-- A vector of length `n` placed as the column of an `n × 1` matrix by a broadcast along axis 0. -/
theorem broadcastInDim_vec_col {n : Nat} (dims : Fin 1 → Fin 2) (hd : dims 0 = 0)
    (h : (⟨1, ![n]⟩ : Shape).BroadcastsInDim ⟨2, ![n, 1]⟩ dims) (v : (⟨1, ![n]⟩ : Shape).Idx → α) (r : Fin n) :
    broadcastInDim ⟨2, ![n, 1]⟩ dims h v (ix2 r 0) = v (ix1 r) :=
  broadcastInDim_apply dims h v (ix2 r 0) (ix1 r) (fun a => by
    match a with
    | ⟨0, _⟩ =>
      show r.val = if n = 1 then 0 else (ix2 r (0 : Fin 1) (dims 0)).val
      rw [hd]
      show r.val = if n = 1 then 0 else r.val
      have := r.isLt
      split <;> omega)

/-- An `n × 1` matrix repeated to `n × m` by a broadcast along both axes: entry `(r, j)` is entry `(r, 0)`. -/
theorem broadcastInDim_col_mat {n m : Nat} (dims : Fin 2 → Fin 2) (hd0 : dims 0 = 0) (hd1 : dims 1 = 1)
    (h : (⟨2, ![n, 1]⟩ : Shape).BroadcastsInDim ⟨2, ![n, m]⟩ dims) (v : (⟨2, ![n, 1]⟩ : Shape).Idx → α)
    (r : Fin n) (j : Fin m) :
    broadcastInDim ⟨2, ![n, m]⟩ dims h v (ix2 r j) = v (ix2 r 0) :=
  broadcastInDim_apply dims h v (ix2 r j) (ix2 r 0) (fun a => by
    match a with
    | ⟨0, _⟩ =>
      show r.val = if n = 1 then 0 else (ix2 r j (dims 0)).val
      rw [hd0]
      show r.val = if n = 1 then 0 else r.val
      have := r.isLt
      split <;> omega
    | ⟨1, _⟩ => exact (if_pos rfl).symm)

/-- A scalar repeated over any shape: every entry is the scalar. -/
theorem broadcastInDim_scalar {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

/-- Five `n × 1` matrices side by side, read at `(r, k)`: the `k`-th of them at `(r, 0)`. -/
theorem concat5_apply {n : Nat} (p0 p1 p2 p3 p4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (r : Fin n) (k : Fin 5) :
    concatenate ⟨2, ![n, 5]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r k)
      = (match k with | ⟨0, _⟩ => p0 | ⟨1, _⟩ => p1 | ⟨2, _⟩ => p2 | ⟨3, _⟩ => p3 | ⟨4, _⟩ => p4) (ix2 r 0) := by
  have hi : ∀ (k : Fin 5) (b : Fin 2), b.cast rfl ≠ (1 : Fin 2) → ((ix2 r (0 : Fin 1)) b).val = ((ix2 r k) (b.cast rfl)).val := by
    intro k b hb
    match b with
    | ⟨0, _⟩ => rfl
    | ⟨1, _⟩ => exact absurd rfl hb
  match k with
  | ⟨0, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨0, hk⟩)
      0 (by simp) ⟨2, ![n, 1]⟩ p0 rfl rfl 0 rfl (ix2 r 0) (hi _) rfl
  | ⟨1, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨1, hk⟩)
      1 (by simp) ⟨2, ![n, 1]⟩ p1 rfl rfl 1 rfl (ix2 r 0) (hi _) rfl
  | ⟨2, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨2, hk⟩)
      2 (by simp) ⟨2, ![n, 1]⟩ p2 rfl rfl 2 rfl (ix2 r 0) (hi _) rfl
  | ⟨3, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨3, hk⟩)
      3 (by simp) ⟨2, ![n, 1]⟩ p3 rfl rfl 3 rfl (ix2 r 0) (hi _) rfl
  | ⟨4, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨4, hk⟩)
      4 (by simp) ⟨2, ![n, 1]⟩ p4 rfl rfl 4 rfl (ix2 r 0) (hi _) rfl

/-- An `n × 10` and an `n × 5` matrix side by side, read in the first ten columns. -/
theorem concat_10_5_left {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 10)
    (hc : c'.val = c.val) :
    concatenate ⟨2, ![n, 15]⟩ 1 [⟨⟨2, ![n, 10]⟩, a⟩, ⟨⟨2, ![n, 5]⟩, b⟩] h (ix2 r c) = a (ix2 r c') :=
  concatenate_pair_apply_left 1 a b h (ix2 r c) rfl (ix2 r c') (fun d => by
    match d with
    | ⟨0, _⟩ => rfl
    | ⟨1, _⟩ => exact hc)

/-- … and in the last five. -/
theorem concat_10_5_right {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 5)
    (hc : c'.val + 10 = c.val) :
    concatenate ⟨2, ![n, 15]⟩ 1 [⟨⟨2, ![n, 10]⟩, a⟩, ⟨⟨2, ![n, 5]⟩, b⟩] h (ix2 r c) = b (ix2 r c') :=
  concatenate_pair_apply_right 1 a b h (ix2 r c) rfl rfl (ix2 r c') (fun d hd => by
    match d with
    | ⟨0, _⟩ => rfl
    | ⟨1, _⟩ => exact absurd rfl hd) hc

/-- The index over row `r` with `k` inserted on the summed axis is `(r, k)`. -/
theorem lift_rows {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A lane reduction by addition of an `n × m` matrix along its rows, on the extended reals: the sum of the row. -/
theorem multiReduction_rows {n m : Nat} (src : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ k : Fin m, src (ix2 r k) :=
  (Ideal.multiReduction_add_single src 0x00000000#32 h hφ hacc (ix1 r)).trans
    (Finset.sum_congr rfl fun k _ => congrArg src (lift_rows h r k))

/-- The host's sum of an `n × m` matrix along its rows, on the extended reals: the initial value plus the sum of the row. -/
theorem hostReduceAdd_rows {n m : Nat} (x : FVec Ideal ⟨2, ![n, m]⟩ .f32) (init : (⟨0, ![]⟩ : Shape).Idx → EReal)
    (h' : (⟨2, ![n, m]⟩ : Shape).ReducesTo [1] ⟨1, ![n]⟩) (hu : 0 < (⟨0, ![]⟩ : Shape).numel)
    (h : (⟨2, ![n, m]⟩ : Shape).Reduces [1] ⟨1, ![n]⟩) (r : Fin n) :
    Host.reduceAdd (F := Ideal) x init h' hu (ix1 r) = init ix0 + ∑ k : Fin m, x (ix2 r k) := by
  have e0 : Shape.Idx.first hu = ix0 := funext fun a => a.elim0
  show Ideal.hostReduceAdd h' x (init (Shape.Idx.first hu)) (ix1 r) = _
  rw [e0]
  exact (Ideal.hostReduceAdd_single h' h x (init ix0) (ix1 r)).trans
    (congrArg (init ix0 + ·) (Finset.sum_congr rfl fun k _ => congrArg x (lift_rows h r k)))

end Cert.LibColumns

end
-- ==== Proof.KernelPayload.lean ====
/-
  What the kernel's body computes for columns 10..14 of a block, read entry by entry. From the block's four logit columns
  `z` (8000 rows) the body forms the weights `exp z / (row sum of exp z)`, places five numerators (weights 0, 1, 1, 1, 3)
  and five denominators (1, 1, w1 + w0, (w1 + w2) + w3, w3 + w2) side by side, divides, clamps and takes the log-odds.
  Entry `(r, k)` therefore depends on row `r` of `z` only, and is `logit (ratio (soft (row r of z)) k)`: the quotients
  by the word of 1.0 in positions 0 and 1 are the weights themselves.
-/
import proofs.«161381_j11544872092147_2_alg».proof.Proof.Gen.KernelIdeal.Skeleton
import proofs.«161381_j11544872092147_2_alg».proof.Proof.RowSpec
import proofs.«161381_j11544872092147_2_alg».proof.Proof.LibColumns
import Idealize.ShloMosaic.Lib.ValueLayout

noncomputable section

open scoped BigOperators

namespace Cert.KernelIdeal.Payload

open Cert.KernelIdeal Cert.KernelIdeal.Gen Idealize.ShloMosaic Idealize.ShloMosaic.ValueIdx Cert.RowSpec Cert.LibColumns

/-- The weights: exponentials over their row sum, the sum broadcast back along the row. -/
def weightsK (z : Vec Ideal S8000x4 .f32) : FVec Ideal S8000x4 .f32 :=
  divf (exp z)
    (broadcastTo S8000x4
      (shapeCast S8000x1
        (multiReduction .add [1] S8000 (exp z) 0x00000000#32 reduces_S8000x4_S8000 (.inl rfl) rfl)
        shapeCasts_S8000_S8000x1)
      broadcasts_S8000x1_S8000x4)

theorem weightsK_apply (z : Vec Ideal S8000x4 .f32) (r : Fin 8000) (j : Fin 4) :
    weightsK z (ix2 r j) = soft (fun k => z (ix2 r k)) j := by
  show Ideal.div (Ideal.exp (z (ix2 r j))) (broadcastTo S8000x4 _ broadcasts_S8000x1_S8000x4 (ix2 r j)) = _
  refine congrArg (Ideal.div (Ideal.exp (z (ix2 r j)))) ?_
  refine (broadcastTo_col _ broadcasts_S8000x1_S8000x4 r j).trans ?_
  refine (shapeCast_vec_col _ shapeCasts_S8000_S8000x1 r).trans ?_
  exact multiReduction_rows (exp z) reduces_S8000x4_S8000 (.inl rfl) rfl r

/-- The four weight columns. -/
def c0 (s : FVec Ideal S8000x4 .f32) : FVec Ideal S8000x1 .f32 := extractStridedSlice S8000x1 ![0, 0] s slices_S8000x4_o0_0_S8000x1
def c1 (s : FVec Ideal S8000x4 .f32) : FVec Ideal S8000x1 .f32 := extractStridedSlice S8000x1 ![0, 1] s slices_S8000x4_o0_1_S8000x1
def c2 (s : FVec Ideal S8000x4 .f32) : FVec Ideal S8000x1 .f32 := extractStridedSlice S8000x1 ![0, 2] s slices_S8000x4_o0_2_S8000x1
def c3 (s : FVec Ideal S8000x4 .f32) : FVec Ideal S8000x1 .f32 := extractStridedSlice S8000x1 ![0, 3] s slices_S8000x4_o0_3_S8000x1

theorem c0_apply (s : FVec Ideal S8000x4 .f32) (r : Fin 8000) : c0 s (ix2 r 0) = s (ix2 r 0) :=
  slice2_axis1_apply 0 s slices_S8000x4_o0_0_S8000x1 r 0 0 rfl
theorem c1_apply (s : FVec Ideal S8000x4 .f32) (r : Fin 8000) : c1 s (ix2 r 0) = s (ix2 r 1) :=
  slice2_axis1_apply 1 s slices_S8000x4_o0_1_S8000x1 r 0 1 rfl
theorem c2_apply (s : FVec Ideal S8000x4 .f32) (r : Fin 8000) : c2 s (ix2 r 0) = s (ix2 r 2) :=
  slice2_axis1_apply 2 s slices_S8000x4_o0_2_S8000x1 r 0 2 rfl
theorem c3_apply (s : FVec Ideal S8000x4 .f32) (r : Fin 8000) : c3 s (ix2 r 0) = s (ix2 r 3) :=
  slice2_axis1_apply 3 s slices_S8000x4_o0_3_S8000x1 r 0 3 rfl

/-- The five numerators side by side. -/
def numK (s : FVec Ideal S8000x4 .f32) : FVec Ideal S8000x5 .f32 :=
  concatenate S8000x5 1 [⟨S8000x1, c0 s⟩, ⟨S8000x1, c1 s⟩, ⟨S8000x1, c1 s⟩, ⟨S8000x1, c1 s⟩, ⟨S8000x1, c3 s⟩]
    concatenates_S8000x1_S8000x1_S8000x1_S8000x1_S8000x1_S8000x5_d1

/-- The five denominators side by side. -/
def denK (s : FVec Ideal S8000x4 .f32) : FVec Ideal S8000x5 .f32 :=
  concatenate S8000x5 1
    [⟨S8000x1, broadcast S8000x1 (Scalar.ofBits .f32 0x3F800000#32)⟩,
     ⟨S8000x1, broadcast S8000x1 (Scalar.ofBits .f32 0x3F800000#32)⟩,
     ⟨S8000x1, addf (c1 s) (c0 s)⟩, ⟨S8000x1, addf (addf (c1 s) (c2 s)) (c3 s)⟩, ⟨S8000x1, addf (c3 s) (c2 s)⟩]
    concatenates_S8000x1_S8000x1_S8000x1_S8000x1_S8000x1_S8000x5_d1

/-- The quotient of numerator by denominator at `(r, k)` is the `k`-th ratio of row `r`'s weights. -/
theorem quot_apply (s : FVec Ideal S8000x4 .f32) (r : Fin 8000) (k : Fin 5) :
    Ideal.div (numK s (ix2 r k)) (denK s (ix2 r k)) = ratio (fun j => s (ix2 r j)) k := by
  unfold numK denK
  rw [concat5_apply, concat5_apply]
  match k with
  | ⟨0, _⟩ =>
    show Ideal.div (c0 s (ix2 r 0)) one = s (ix2 r 0)
    rw [div_one, c0_apply]
  | ⟨1, _⟩ =>
    show Ideal.div (c1 s (ix2 r 0)) one = s (ix2 r 1)
    rw [div_one, c1_apply]
  | ⟨2, _⟩ =>
    show Ideal.div (c1 s (ix2 r 0)) (c1 s (ix2 r 0) + c0 s (ix2 r 0)) = Ideal.div (s (ix2 r 1)) (s (ix2 r 1) + s (ix2 r 0))
    rw [c1_apply, c0_apply]
  | ⟨3, _⟩ =>
    show Ideal.div (c1 s (ix2 r 0)) (c1 s (ix2 r 0) + c2 s (ix2 r 0) + c3 s (ix2 r 0))
      = Ideal.div (s (ix2 r 1)) (s (ix2 r 1) + s (ix2 r 2) + s (ix2 r 3))
    rw [c1_apply, c2_apply, c3_apply]
  | ⟨4, _⟩ =>
    show Ideal.div (c3 s (ix2 r 0)) (c3 s (ix2 r 0) + c2 s (ix2 r 0)) = Ideal.div (s (ix2 r 3)) (s (ix2 r 3) + s (ix2 r 2))
    rw [c3_apply, c2_apply]

/-- The payload entry by entry: clamp and log-odds of the quotient, all pointwise. -/
theorem pay_pointwise (z : Vec Ideal S8000x4 .f32) (i : S8000x5.Idx) :
    k0_pay1 (F := Ideal) z i = logit (Ideal.div (numK (weightsK z) i) (denK (weightsK z) i)) := rfl

/-- Entry `(r, k)` of the payload from row `r` of the logits. -/
theorem pay_apply (z : Vec Ideal S8000x4 .f32) (r : Fin 8000) (k : Fin 5) :
    k0_pay1 (F := Ideal) z (ix2 r k) = logit (ratio (soft (fun j => z (ix2 r j))) k) := by
  rw [pay_pointwise, quot_apply]
  refine congrArg (fun s => logit (ratio s k)) ?_
  funext j
  exact weightsK_apply z r j

end Cert.KernelIdeal.Payload

end
-- ==== Proof.KernelBlock.lean ====
/-
  One grid point of the kernel, as a function of its input block. The body stores columns 0..9 of the input block into
  columns 0..9 of the output block and the payload of the input block's columns 10..13 into columns 10..14. Both stores
  are tiles of ONE function of the output block's index — row `r` of the output block is `rowOut` of row `r` of the input
  block — and together they cover the output block, so the block the run leaves is that function.
-/
import proofs.«161381_j11544872092147_2_alg».proof.Proof.Gen.KernelIdeal.Frame
import proofs.«161381_j11544872092147_2_alg».proof.Proof.KernelPayload
import Idealize.ShloMosaic.Lib.Pipeline.Value

noncomputable section

namespace Cert.KernelIdeal.Block

open Cert.KernelIdeal Cert.KernelIdeal.Gen Idealize.ShloMosaic Idealize.ShloMosaic.TcCoe Idealize.SL.Sem
open Idealize.ShloMosaic.ValueIdx Cert.RowSpec Cert.KernelIdeal.Payload

/-- The output block from the input block, row by row. -/
def blockOf (x0 : Vec Ideal S8000x16 .f32) (y : S8000x15.Idx) : EReal :=
  rowOut (fun c => x0 (ix2 (⟨(y 0).val, idx2_lt0 y⟩ : Fin 8000) c)) ⟨(y 1).val, idx2_lt1 y⟩

/-- … at an index whose coordinates are known. -/
theorem blockOf_of (x0 : Vec Ideal S8000x16 .f32) (y : S8000x15.Idx) (r : Fin 8000) (c : Fin 15)
    (h0 : (y 0).val = r.val) (h1 : (y 1).val = c.val) : blockOf x0 y = rowOut (fun k => x0 (ix2 r k)) c := by
  have e0 : (⟨(y 0).val, idx2_lt0 y⟩ : Fin 8000) = r := Fin.ext h0
  have e1 : (⟨(y 1).val, idx2_lt1 y⟩ : Fin 15) = c := Fin.ext h1
  unfold blockOf
  rw [e0, e1]

/-- The last five entries of an output row. -/
theorem rowOut_tail (row : Fin 16 → EReal) (k : Fin 5) :
    rowOut row ⟨10 + k.val, by omega⟩ = logit (ratio (soft (logits row)) k) := by
  rw [rowOut_ge _ _ (by show ¬10 + k.val < 10; omega)]
  refine congrArg (fun q => logit (ratio (soft (logits row)) q)) (Fin.ext ?_)
  show 10 + k.val - 10 = k.val
  omega

/-- The first ten entries of an output row. -/
theorem rowOut_head (row : Fin 16 → EReal) (k : Fin 10) : rowOut row ⟨k.val, by omega⟩ = row ⟨k.val, by omega⟩ :=
  rowOut_lt _ _ k.isLt

/-- The load of columns 10..13 of the input block, at `(r, j)`. -/
theorem ld_logits (x0 : Vec Ideal S8000x16 .f32) (inb : ∀ a, (![0, 10] : Fin 2 → Nat) a + S8000x4.size a ≤ S8000x16.size a)
    (r : Fin 8000) (j : Fin 4) :
    View.ld x0 (Rect.unit (s := S8000x16) ![0, 10] S8000x4.size inb) (ix2 r j) = x0 (ix2 r ⟨10 + j.val, by omega⟩) := by
  show x0 ((Rect.unit (s := S8000x16) ![0, 10] S8000x4.size inb).emb (ix2 r j)) = _
  refine congrArg x0 (funext fun a => Fin.ext ?_)
  match a with
  | ⟨0, _⟩ => show 0 + 1 * r.val = r.val; omega
  | ⟨1, _⟩ => show 10 + 1 * j.val = 10 + j.val; omega

/-- The load of columns 0..9 of the input block, at `(r, k)`. -/
theorem ld_head (x0 : Vec Ideal S8000x16 .f32) (inb : ∀ a, (![0, 0] : Fin 2 → Nat) a + S8000x10.size a ≤ S8000x16.size a)
    (r : Fin 8000) (k : Fin 10) :
    View.ld x0 (Rect.unit (s := S8000x16) ![0, 0] S8000x10.size inb) (ix2 r k) = x0 (ix2 r ⟨k.val, by omega⟩) := by
  show x0 ((Rect.unit (s := S8000x16) ![0, 0] S8000x10.size inb).emb (ix2 r k)) = _
  refine congrArg x0 (funext fun a => Fin.ext ?_)
  match a with
  | ⟨0, _⟩ => show 0 + 1 * r.val = r.val; omega
  | ⟨1, _⟩ => show 0 + 1 * k.val = k.val; omega

/-- The store into columns 10..14 is the tile of `blockOf` under its rectangle. -/
theorem tile_tail (x0 : Vec Ideal S8000x16 .f32) (inbL : ∀ a, (![0, 10] : Fin 2 → Nat) a + S8000x4.size a ≤ S8000x16.size a)
    (inbS : ∀ a, (![0, 10] : Fin 2 → Nat) a + S8000x5.size a ≤ S8000x15.size a) (x : S8000x5.Idx) :
    k0_pay1 (F := Ideal) (View.ld x0 (Rect.unit (s := S8000x16) ![0, 10] S8000x4.size inbL)) x
      = blockOf x0 ((Rect.unit (s := S8000x15) ![0, 10] S8000x5.size inbS).emb x) := by
  obtain ⟨r, k, rfl⟩ : ∃ (r : Fin 8000) (k : Fin 5), x = ix2 r k := ⟨x 0, x 1, eq_ix2 x⟩
  rw [pay_apply, blockOf_of x0 _ r ⟨10 + k.val, by omega⟩ (by show 0 + 1 * r.val = r.val; omega)
    (by show 10 + 1 * k.val = 10 + k.val; omega), rowOut_tail]
  refine congrArg (fun z => logit (ratio (soft z) k)) (funext fun j => ?_)
  exact ld_logits x0 inbL r j

/-- The store into columns 0..9 is the tile of `blockOf` under its rectangle. -/
theorem tile_head (x0 : Vec Ideal S8000x16 .f32) (inbL : ∀ a, (![0, 0] : Fin 2 → Nat) a + S8000x10.size a ≤ S8000x16.size a)
    (inbS : ∀ a, (![0, 0] : Fin 2 → Nat) a + S8000x10.size a ≤ S8000x15.size a) (x : S8000x10.Idx) :
    View.ld x0 (Rect.unit (s := S8000x16) ![0, 0] S8000x10.size inbL) x
      = blockOf x0 ((Rect.unit (s := S8000x15) ![0, 0] S8000x10.size inbS).emb x) := by
  obtain ⟨r, k, rfl⟩ : ∃ (r : Fin 8000) (k : Fin 10), x = ix2 r k := ⟨x 0, x 1, eq_ix2 x⟩
  rw [blockOf_of x0 _ r ⟨k.val, by omega⟩ (by show 0 + 1 * r.val = r.val; omega)
    (by show 0 + 1 * k.val = k.val; omega), rowOut_head]
  exact ld_head x0 inbL r k

/-- What the run leaves in the output block is `blockOf` of the input block. -/
theorem out_eq (c : Dev nD) (i : grid0.Coords) (arg1 : Memref sig .tc .vmem S8000x16 .f32) (harg1 : arg1.IsWhole)
    (arg2 : Memref sig .tc .vmem S8000x15 .f32) (harg2 : arg2.IsWhole) (x0 : Vec Ideal S8000x16 .f32) :
    out0_A_1 c i arg1 harg1 arg2 harg2 x0 = blockOf x0 := by
  unfold out0_A_1
  rw [View.read_writes_eq_canon _ _ _ (cover0_A_1 c i arg1 harg1 arg2 harg2 x0)]
  funext y
  refine View.canon_apply_of_pieces (blockOf x0) _ ?_ y (cover0_A_1 c i arg1 harg1 arg2 harg2 x0 y)
  unfold kernelRun0_A
  dsimp only
  simp only [View.readAt_eq_ld, harg1.read_unread]
  intro p hp
  rcases List.mem_cons.mp hp with rfl | hp
  · exact tile_tail x0 inb_S8000x16_S8000x4_0_10 inb_S8000x15_S8000x5_0_10
  · rcases List.mem_cons.mp hp with rfl | hp
    · exact tile_head x0 inb_S8000x16_S8000x10_0_0 inb_S8000x15_S8000x10_0_0
    · exact absurd hp List.not_mem_nil

end Cert.KernelIdeal.Block

end
-- ==== Proof.KernelArray.lean ====
/-
  From blocks to the whole array. Grid point `t` (of 500) reads rows `8000 t .. 8000 t + 7999` of the argument, all sixteen
  columns, and writes back the same rows of the result, all fifteen columns. Since a block's row `r` is the array's row
  `8000 t + r` on both sides and the body works row by row, what point `t` writes back is block `t` of the row-wise
  function `G` of the argument. Row `R` of the result lies in the block of point `R / 8000`, so the blocks cover the
  array and the array ends holding `G` of the argument.
-/
import proofs.«161381_j11544872092147_2_alg».proof.Proof.Gen.KernelIdeal.Value
import proofs.«161381_j11544872092147_2_alg».proof.Proof.KernelBlock

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.RowSpec Cert.KernelIdeal.Block

variable (m : (ℓ : Loc nD τ sig) → Buf (Elt Ideal) ℓ) (ρ : Dev nD → PrngReg)

/-- `G` at an index whose coordinates are known. -/
theorem G_of (X : S4000000x16.Idx → EReal) (i : S4000000x15.Idx) (R : Fin 4000000) (c : Fin 15)
    (h0 : (i 0).val = R.val) (h1 : (i 1).val = c.val) : G X i = rowOut (fun k => X (ix2 R k)) c := by
  have e0 : (⟨(i 0).val, idx2_lt0 i⟩ : Fin 4000000) = R := Fin.ext h0
  have e1 : (⟨(i 1).val, idx2_lt1 i⟩ : Fin 15) = c := Fin.ext h1
  unfold G
  rw [e0, e1]

/-- A block whose row `r` is the array's row `8000 T + r`: its `blockOf` is `G` of the array read at the matching index. -/
theorem block_eq_G (x0 : Vec Ideal S8000x16 .f32) (X : S4000000x16.Idx → EReal) (T : Nat) (hT : T < 500)
    (hx : ∀ (r : Fin 8000) (k : Fin 16), x0 (ix2 r k) = X (ix2 ⟨T * 8000 + r.val, by omega⟩ k))
    (y : S8000x15.Idx) (i : S4000000x15.Idx) (hi0 : (i 0).val = T * 8000 + (y 0).val) (hi1 : (i 1).val = (y 1).val) :
    blockOf x0 y = G X i := by
  have hy0 : (y 0).val < 8000 := idx2_lt0 y
  have hy1 : (y 1).val < 15 := idx2_lt1 y
  rw [blockOf_of x0 y ⟨(y 0).val, hy0⟩ ⟨(y 1).val, hy1⟩ rfl rfl,
    G_of X i ⟨T * 8000 + (y 0).val, by omega⟩ ⟨(y 1).val, hy1⟩ hi0 hi1]
  refine congrArg (fun row => rowOut row ⟨(y 1).val, hy1⟩) (funext fun k => ?_)
  exact hx ⟨(y 0).val, hy0⟩ k

/-- The printed index maps, decided over the 500 points: both windows' block index is `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

theorem pt_lt (t : Fin cfg0.N) : t.val < 500 := by
  have h := t.isLt
  have hN : cfg0.N = 500 := N_0
  omega

/-- The input block at point `t`, entry `(r, k)`: the argument at row `8000 t + r`, column `k`. -/
theorem iblk_apply (c : Dev nD) (t : Fin cfg0.N) (r : Fin 8000) (k : Fin 16) :
    iblk m c 0 t (ix2 r k) = V m c main_arg0 (ix2 ⟨t.val * 8000 + r.val, by have := pt_lt t; omega⟩ k) := by
  obtain ⟨e0, e1, -, -⟩ := idx_facts t
  show V m c main_arg0 (((cfg0.win 0).blk t).view.emb (ix2 r k)) = _
  refine congrArg (V m c main_arg0) (funext fun a => Fin.ext ?_)
  match a with
  | ⟨0, _⟩ => show win0_0.index t (0 : Fin 2) * 8000 + 1 * r.val = t.val * 8000 + r.val; rw [e0]; omega
  | ⟨1, _⟩ => show win0_0.index t (1 : Fin 2) * 16 + 1 * k.val = k.val; rw [e1]; omega

/-- What point `t` writes back is block `t` of `G` of the argument. -/
theorem flushed_eq (c : Dev nD) (t : Fin cfg0.N) :
    (dats m 0 c).flushed 1 t = ((cfg0.win 1).blk t).view.read (Elt Ideal) (G (V m c main_arg0)) := by
  rw [Value.flushed1_A, out_eq c (grid0.coords t) (ms0_0 t) (hs0_0 t) (ms0_1 t) (hs0_1 t) (iblk m c 0 t)]
  obtain ⟨-, -, e2, e3⟩ := idx_facts t
  funext y
  show blockOf (iblk m c 0 t) y = G (V m c main_arg0) (((cfg0.win 1).blk t).view.emb y)
  refine block_eq_G (iblk m c 0 t) (V m c main_arg0) t.val (pt_lt t) (fun r k => iblk_apply m c t r k) y _ ?_ ?_
  · show win0_1.index t (0 : Fin 2) * 8000 + 1 * (y 0).val = t.val * 8000 + (y 0).val
    rw [e2]; omega
  · show win0_1.index t (1 : Fin 2) * 15 + 1 * (y 1).val = (y 1).val
    rw [e3]; omega

/-- An index of the array is in point `t`'s block iff each coordinate is in the block's range on its axis. -/
theorem mem_blk (t : Fin cfg0.N) (i : S4000000x15.Idx) :
    i ∈ ((cfg0.win 1).blk t).view.set ↔ ∀ a : Fin 2, win0_1.index t a * S8000x15.size a ≤ (i a).val
      ∧ (i a).val < win0_1.index t a * S8000x15.size a + S8000x15.size a := by
  show i ∈ ((View.whole main_v0).slice (win0_1.rect t)).set ↔ _
  rw [View.set_slice_whole, Rect.mem_set_unit]
  exact Iff.rfl

/-- Every index of the result array lies in the block of the point its row names. -/
theorem cover (i : S4000000x15.Idx) :
    ∃ t : Fin cfg0.N, (cfg0.win 1).flush t = true ∧ i ∈ ((cfg0.win 1).blk t).view.set := by
  have hi0 : (i 0).val < 4000000 := idx2_lt0 i
  have hi1 : (i 1).val < 15 := idx2_lt1 i
  have hN : cfg0.N = 500 := N_0
  have ht : (i 0).val / 8000 < cfg0.N := by rw [hN]; omega
  obtain ⟨-, -, e2, e3⟩ := idx_facts ⟨(i 0).val / 8000, ht⟩
  refine ⟨⟨(i 0).val / 8000, ht⟩, flush0_1 _, ?_⟩
  rw [mem_blk]
  intro a
  match a with
  | ⟨0, _⟩ =>
    show win0_1.index ⟨(i 0).val / 8000, ht⟩ (0 : Fin 2) * 8000 ≤ (i 0).val
      ∧ (i 0).val < win0_1.index ⟨(i 0).val / 8000, ht⟩ (0 : Fin 2) * 8000 + 8000
    rw [e2]
    show (i 0).val / 8000 * 8000 ≤ (i 0).val ∧ (i 0).val < (i 0).val / 8000 * 8000 + 8000
    omega
  | ⟨1, _⟩ =>
    show win0_1.index ⟨(i 0).val / 8000, ht⟩ (1 : Fin 2) * 15 ≤ (i 1).val
      ∧ (i 1).val < win0_1.index ⟨(i 0).val / 8000, ht⟩ (1 : Fin 2) * 15 + 15
    rw [e3]
    omega

/-- The result array after the run is `G` of the argument. -/
theorem final (c : Dev nD) : (dats m 0 c).arrAt 1 cfg0.N = G (V m c main_arg0) :=
  (dats m 0 c).arrAt_eq_of_cover 1 (G (V m c main_arg0)) (fun t _ => flushed_eq m c t) cover

/-- Every weakly fair execution of the idealized kernel terminates with the result array at `G` of the argument and the
    argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.RefRun.lean ====
/-
  The reference program's run, written out: its fifty-three host operations in order (the six of the clamp it calls listed
  at the call), the fact that the program is that straight line, and what the result buffer holds afterwards as a
  composition of named stages of the argument: the four gathered columns, the four weights (exponential over the row's sum),
  the five ratios, the clamp, the log-odds, and the final concatenation with the first ten columns of the argument.
-/
import proofs.«161381_j11544872092147_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [
    StableHlo.nullary main_c (fun i => lit0 (S4.rowMajor i)),
    StableHlo.nullary main_c_0 (constantI S4 1 0#1),
    StableHlo.nullary main_c_1 (constantI S_ 32 16#32),
    StableHlo.unary main_c_1 main_v0 (broadcastInDim S4 ![] bcast_S_S4 : (⟨S_, .i32⟩ : BufTy).Contents (Elt F) → (⟨S4, .i32⟩ : BufTy).Contents (Elt F)),
    StableHlo.binary main_c main_v0 main_v1 (addi : (⟨S4, .i32⟩ : BufTy).Contents (Elt F) → (⟨S4, .i32⟩ : BufTy).Contents (Elt F) → (⟨S4, .i32⟩ : BufTy).Contents (Elt F)),
    StableHlo.ternary main_c_0 main_v1 main_c main_v2 (select : (⟨S4, .i1⟩ : BufTy).Contents (Elt F) → (⟨S4, .i32⟩ : BufTy).Contents (Elt F) → (⟨S4, .i32⟩ : BufTy).Contents (Elt F) → (⟨S4, .i32⟩ : BufTy).Contents (Elt F)),
    StableHlo.unary main_v2 main_v3 (broadcastInDim S4x1 ![0] bcast_S4_S4x1_0 : (⟨S4, .i32⟩ : BufTy).Contents (Elt F) → (⟨S4x1, .i32⟩ : BufTy).Contents (Elt F)),
    StableHlo.binary main_arg0 main_v3 main_v4 ((fun x i => Host.gather gather_S4000000x16_S4x1_S4000000x4_0_1_n_n_1_1_40000001 x i) : (⟨S4000000x16, .f32⟩ : BufTy).Contents (Elt F) → (⟨S4x1, .i32⟩ : BufTy).Contents (Elt F) → (⟨S4000000x4, .f32⟩ : BufTy).Contents (Elt F)),
    StableHlo.unary main_v4 main_v5 (Host.exp : (⟨S4000000x4, .f32⟩ : BufTy).Contents (Elt F) → (⟨S4000000x4, .f32⟩ : BufTy).Contents (Elt F)),
    StableHlo.nullary main_cst (constant S_ .f32 0x00000000#32),
    StableHlo.binary main_v5 main_cst main_v6 ((fun x v => Host.reduceAdd x v reducesTo_S4000000x4_S4000000_d1 h_S_) : (⟨S4000000x4, .f32⟩ : BufTy).Contents (Elt F) → (⟨S_, .f32⟩ : BufTy).Contents (Elt F) → (⟨S4000000, .f32⟩ : BufTy).Contents (Elt F)),
    StableHlo.unary main_v6 main_v7 (broadcastInDim S4000000x1 ![0] bcast_S4000000_S4000000x1_0 : (⟨S4000000, .f32⟩ : BufTy).Contents (Elt F) → (⟨S4000000x1, .f32⟩ : BufTy).Contents (Elt F)),
    StableHlo.unary main_v7 main_v8 (broadcastInDim S4000000x4 ![0, 1] bcast_S4000000x1_S4000000x4_0_1 : (⟨S4000000x1, .f32⟩ : BufTy).Contents (Elt F) → (⟨S4000000x4, .f32⟩ : BufTy).Contents (Elt F)),
    StableHlo.binary main_v5 main_v8 main_v9 (Host.divf : (⟨S4000000x4, .f32⟩ : BufTy).Contents (Elt F) → (⟨S4000000x4, .f32⟩ : BufTy).Contents (Elt F) → (⟨S4000000x4, .f32⟩ : BufTy).Contents (Elt F)),
    StableHlo.unary main_v9 main_v10 ((extractStridedSlice S4000000x1 ![0, 0] · slices_S4000000x4_S4000000x1_0_0) : (⟨S4000000x4, .f32⟩ : BufTy).Contents (Elt F) → (⟨S4000000x1, .f32⟩ : BufTy).Contents (Elt F)),
    StableHlo.reshape main_v10 main_v11 rfl shapeCasts_S4000000x1_S4000000,
    StableHlo.unary main_v9 main_v12 ((extractStridedSlice S4000000x1 ![0, 1] · slices_S4000000x4_S4000000x1_0_1) : (⟨S4000000x4, .f32⟩ : BufTy).Contents (Elt F) → (⟨S4000000x1, .f32⟩ : BufTy).Contents (Elt F)),
    StableHlo.reshape main_v12 main_v13 rfl shapeCasts_S4000000x1_S4000000,
    StableHlo.unary main_v9 main_v14 ((extractStridedSlice S4000000x1 ![0, 2] · slices_S4000000x4_S4000000x1_0_2) : (⟨S4000000x4, .f32⟩ : BufTy).Contents (Elt F) → (⟨S4000000x1, .f32⟩ : BufTy).Contents (Elt F)),
    StableHlo.reshape main_v14 main_v15 rfl shapeCasts_S4000000x1_S4000000,
    StableHlo.unary main_v9 main_v16 ((extractStridedSlice S4000000x1 ![0, 3] · slices_S4000000x4_S4000000x1_0_3) : (⟨S4000000x4, .f32⟩ : BufTy).Contents (Elt F) → (⟨S4000000x1, .f32⟩ : BufTy).Contents (Elt F)),
    StableHlo.reshape main_v16 main_v17 rfl shapeCasts_S4000000x1_S4000000,
    StableHlo.binary main_v13 main_v11 main_v18 (addf : (⟨S4000000, .f32⟩ : BufTy).Contents (Elt F) → (⟨S4000000, .f32⟩ : BufTy).Contents (Elt F) → (⟨S4000000, .f32⟩ : BufTy).Contents (Elt F)),
    StableHlo.binary main_v13 main_v18 main_v19 (Host.divf : (⟨S4000000, .f32⟩ : BufTy).Contents (Elt F) → (⟨S4000000, .f32⟩ : BufTy).Contents (Elt F) → (⟨S4000000, .f32⟩ : BufTy).Contents (Elt F)),
    StableHlo.binary main_v13 main_v15 main_v20 (addf : (⟨S4000000, .f32⟩ : BufTy).Contents (Elt F) → (⟨S4000000, .f32⟩ : BufTy).Contents (Elt F) → (⟨S4000000, .f32⟩ : BufTy).Contents (Elt F)),
    StableHlo.binary main_v20 main_v17 main_v21 (addf : (⟨S4000000, .f32⟩ : BufTy).Contents (Elt F) → (⟨S4000000, .f32⟩ : BufTy).Contents (Elt F) → (⟨S4000000, .f32⟩ : BufTy).Contents (Elt F)),
    StableHlo.binary main_v13 main_v21 main_v22 (Host.divf : (⟨S4000000, .f32⟩ : BufTy).Contents (Elt F) → (⟨S4000000, .f32⟩ : BufTy).Contents (Elt F) → (⟨S4000000, .f32⟩ : BufTy).Contents (Elt F)),
    StableHlo.binary main_v17 main_v15 main_v23 (addf : (⟨S4000000, .f32⟩ : BufTy).Contents (Elt F) → (⟨S4000000, .f32⟩ : BufTy).Contents (Elt F) → (⟨S4000000, .f32⟩ : BufTy).Contents (Elt F)),
    StableHlo.binary main_v17 main_v23 main_v24 (Host.divf : (⟨S4000000, .f32⟩ : BufTy).Contents (Elt F) → (⟨S4000000, .f32⟩ : BufTy).Contents (Elt F) → (⟨S4000000, .f32⟩ : BufTy).Contents (Elt F)),
    StableHlo.unary main_v11 main_v25 (broadcastInDim S4000000x1 ![0] bcast_S4000000_S4000000x1_0 : (⟨S4000000, .f32⟩ : BufTy).Contents (Elt F) → (⟨S4000000x1, .f32⟩ : BufTy).Contents (Elt F)),
    StableHlo.unary main_v13 main_v26 (broadcastInDim S4000000x1 ![0] bcast_S4000000_S4000000x1_0 : (⟨S4000000, .f32⟩ : BufTy).Contents (Elt F) → (⟨S4000000x1, .f32⟩ : BufTy).Contents (Elt F)),
    StableHlo.unary main_v19 main_v27 (broadcastInDim S4000000x1 ![0] bcast_S4000000_S4000000x1_0 : (⟨S4000000, .f32⟩ : BufTy).Contents (Elt F) → (⟨S4000000x1, .f32⟩ : BufTy).Contents (Elt F)),
    StableHlo.unary main_v22 main_v28 (broadcastInDim S4000000x1 ![0] bcast_S4000000_S4000000x1_0 : (⟨S4000000, .f32⟩ : BufTy).Contents (Elt F) → (⟨S4000000x1, .f32⟩ : BufTy).Contents (Elt F)),
    StableHlo.unary main_v24 main_v29 (broadcastInDim S4000000x1 ![0] bcast_S4000000_S4000000x1_0 : (⟨S4000000, .f32⟩ : BufTy).Contents (Elt F) → (⟨S4000000x1, .f32⟩ : BufTy).Contents (Elt F)),
    StableHlo.nary ![main_v25, main_v26, main_v27, main_v28, main_v29] main_v30 (fun u => concatenate S4000000x5 1 [⟨S4000000x1, u 0⟩, ⟨S4000000x1, u 1⟩, ⟨S4000000x1, u 2⟩, ⟨S4000000x1, u 3⟩, ⟨S4000000x1, u 4⟩] concatenates_S4000000x1_S4000000x1_S4000000x1_S4000000x1_S4000000x1_S4000000x5_d1),
    StableHlo.nullary main_cst_2 (constant S_ .f32 0x358637BD#32),
    StableHlo.nullary main_cst_3 (constant S_ .f32 0x3F7FFFEF#32),
    StableHlo.TRef.unary (.of main_cst_2) main_call0.v0 id,
    StableHlo.TRef.unary main_call0.v0 main_call0.v1 (broadcastInDim S4000000x5 ![] bcast_S_S4000000x5),
    StableHlo.TRef.binary main_call0.v1 (.of main_v30) main_call0.v2 maximumf,
    StableHlo.TRef.unary (.of main_cst_3) main_call0.v3 id,
    StableHlo.TRef.unary main_call0.v3 main_call0.v4 (broadcastInDim S4000000x5 ![] bcast_S_S4000000x5),
    StableHlo.TRef.binary main_call0.v4 main_call0.v2 main_call0.v5 minimumf,
    StableHlo.nullary main_cst_4 (constant S_ .f32 0x3F800000#32),
    StableHlo.unary main_cst_4 main_v32 (broadcastInDim S4000000x5 ![] bcast_S_S4000000x5 : (⟨S_, .f32⟩ : BufTy).Contents (Elt F) → (⟨S4000000x5, .f32⟩ : BufTy).Contents (Elt F)),
    StableHlo.binary main_v32 main_v31 main_v33 (subf : (⟨S4000000x5, .f32⟩ : BufTy).Contents (Elt F) → (⟨S4000000x5, .f32⟩ : BufTy).Contents (Elt F) → (⟨S4000000x5, .f32⟩ : BufTy).Contents (Elt F)),
    StableHlo.binary main_v31 main_v33 main_v34 (Host.divf : (⟨S4000000x5, .f32⟩ : BufTy).Contents (Elt F) → (⟨S4000000x5, .f32⟩ : BufTy).Contents (Elt F) → (⟨S4000000x5, .f32⟩ : BufTy).Contents (Elt F)),
    StableHlo.unary main_v34 main_v35 (Host.log : (⟨S4000000x5, .f32⟩ : BufTy).Contents (Elt F) → (⟨S4000000x5, .f32⟩ : BufTy).Contents (Elt F)),
    StableHlo.nullary main_cst_5 (constant S_ .f32 0x3F800000#32),
    StableHlo.unary main_cst_5 main_v36 (broadcastInDim S4000000x5 ![] bcast_S_S4000000x5 : (⟨S_, .f32⟩ : BufTy).Contents (Elt F) → (⟨S4000000x5, .f32⟩ : BufTy).Contents (Elt F)),
    StableHlo.binary main_v36 main_v35 main_v37 (mulf : (⟨S4000000x5, .f32⟩ : BufTy).Contents (Elt F) → (⟨S4000000x5, .f32⟩ : BufTy).Contents (Elt F) → (⟨S4000000x5, .f32⟩ : BufTy).Contents (Elt F)),
    StableHlo.unary main_arg0 main_v38 ((extractStridedSlice S4000000x10 ![0, 0] · slices_S4000000x16_S4000000x10_0_0) : (⟨S4000000x16, .f32⟩ : BufTy).Contents (Elt F) → (⟨S4000000x10, .f32⟩ : BufTy).Contents (Elt F)),
    StableHlo.binary main_v38 main_v37 main_v39 ((fun a b => concatenate S4000000x15 1 [⟨S4000000x10, a⟩, ⟨S4000000x5, b⟩] concatenates_S4000000x10_S4000000x5_S4000000x15_d1) : (⟨S4000000x10, .f32⟩ : BufTy).Contents (Elt F) → (⟨S4000000x5, .f32⟩ : BufTy).Contents (Elt F) → (⟨S4000000x15, .f32⟩ : BufTy).Contents (Elt F)) ]

set_option maxRecDepth 4096 in
/-- The program is that straight line: the clamp's body unfolded at its call, sequencing reassociated. -/
theorem main_eq (c : Dev nD) : main (F := F) c = seq ops := by
  simp only [main, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., unary_bufs_sub .., binary_bufs_sub .., ternary_bufs_sub ..,
    unary_bufs_sub .., binary_bufs_sub .., unary_bufs_sub .., nullary_bufs_sub .., binary_bufs_sub .., unary_bufs_sub ..,
    unary_bufs_sub .., binary_bufs_sub .., unary_bufs_sub .., reshape_bufs_sub .., unary_bufs_sub .., reshape_bufs_sub ..,
    unary_bufs_sub .., reshape_bufs_sub .., unary_bufs_sub .., reshape_bufs_sub .., binary_bufs_sub .., binary_bufs_sub ..,
    binary_bufs_sub .., binary_bufs_sub .., binary_bufs_sub .., binary_bufs_sub .., binary_bufs_sub .., unary_bufs_sub ..,
    unary_bufs_sub .., unary_bufs_sub .., unary_bufs_sub .., unary_bufs_sub .., nary_bufs_sub .., nullary_bufs_sub ..,
    nullary_bufs_sub .., unary_bufs_sub .., unary_bufs_sub .., binary_bufs_sub .., unary_bufs_sub .., unary_bufs_sub ..,
    binary_bufs_sub .., nullary_bufs_sub .., unary_bufs_sub .., binary_bufs_sub .., binary_bufs_sub .., unary_bufs_sub ..,
    nullary_bufs_sub .., unary_bufs_sub .., binary_bufs_sub .., unary_bufs_sub .., binary_bufs_sub ..⟩

/-! ## The stages -/

/-- The column numbers the gather reads: the table `10, 11, 12, 13` after the index normalization (a select on an all-false
    mask between the table shifted by sixteen and the table: the table), with a trailing unit axis. -/
def colTable : IVec S4x1 32 :=
  broadcastInDim S4x1 ![0] bcast_S4_S4x1_0
    (select (constantI S4 1 0#1)
      (addi (fun i => lit0 (S4.rowMajor i)) (broadcastInDim S4 ![] bcast_S_S4 (constantI S_ 32 16#32)))
      (fun i => lit0 (S4.rowMajor i)))

/-- The four gathered columns. -/
def gathered (x : FVec F S4000000x16 .f32) : FVec F S4000000x4 .f32 :=
  Host.gather gather_S4000000x16_S4x1_S4000000x4_0_1_n_n_1_1_40000001 x colTable

/-- Exponentials over their row sum. -/
def weights (g : FVec F S4000000x4 .f32) : FVec F S4000000x4 .f32 :=
  Host.divf (Host.exp g)
    (broadcastInDim S4000000x4 ![0, 1] bcast_S4000000x1_S4000000x4_0_1
      (broadcastInDim S4000000x1 ![0] bcast_S4000000_S4000000x1_0
        (Host.reduceAdd (Host.exp g) (constant S_ .f32 0x00000000#32) reducesTo_S4000000x4_S4000000_d1 h_S_)))

/-- One weight column as a vector over the rows. -/
def col0 (s : FVec F S4000000x4 .f32) : FVec F S4000000 .f32 :=
  shapeCast S4000000 (extractStridedSlice S4000000x1 ![0, 0] s slices_S4000000x4_S4000000x1_0_0) shapeCasts_S4000000x1_S4000000
def col1 (s : FVec F S4000000x4 .f32) : FVec F S4000000 .f32 :=
  shapeCast S4000000 (extractStridedSlice S4000000x1 ![0, 1] s slices_S4000000x4_S4000000x1_0_1) shapeCasts_S4000000x1_S4000000
def col2 (s : FVec F S4000000x4 .f32) : FVec F S4000000 .f32 :=
  shapeCast S4000000 (extractStridedSlice S4000000x1 ![0, 2] s slices_S4000000x4_S4000000x1_0_2) shapeCasts_S4000000x1_S4000000
def col3 (s : FVec F S4000000x4 .f32) : FVec F S4000000 .f32 :=
  shapeCast S4000000 (extractStridedSlice S4000000x1 ![0, 3] s slices_S4000000x4_S4000000x1_0_3) shapeCasts_S4000000x1_S4000000

/-- A vector over the rows as a one-column matrix. -/
def asCol (v : FVec F S4000000 .f32) : FVec F S4000000x1 .f32 :=
  broadcastInDim S4000000x1 ![0] bcast_S4000000_S4000000x1_0 v

/-- The five ratios, side by side. -/
def ratios (s : FVec F S4000000x4 .f32) : FVec F S4000000x5 .f32 :=
  concatenate S4000000x5 1
    [⟨S4000000x1, asCol (col0 s)⟩, ⟨S4000000x1, asCol (col1 s)⟩,
     ⟨S4000000x1, asCol (Host.divf (col1 s) (addf (col1 s) (col0 s)))⟩,
     ⟨S4000000x1, asCol (Host.divf (col1 s) (addf (addf (col1 s) (col2 s)) (col3 s)))⟩,
     ⟨S4000000x1, asCol (Host.divf (col3 s) (addf (col3 s) (col2 s)))⟩]
    concatenates_S4000000x1_S4000000x1_S4000000x1_S4000000x1_S4000000x1_S4000000x5_d1

/-- The clamp. -/
def clamped (a : FVec F S4000000x5 .f32) : FVec F S4000000x5 .f32 :=
  minimumf (broadcastInDim S4000000x5 ![] bcast_S_S4000000x5 (constant S_ .f32 0x3F7FFFEF#32))
    (maximumf (broadcastInDim S4000000x5 ![] bcast_S_S4000000x5 (constant S_ .f32 0x358637BD#32)) a)

/-- The log-odds, with the factor one the source spells. -/
def logOdds (b : FVec F S4000000x5 .f32) : FVec F S4000000x5 .f32 :=
  mulf (broadcastInDim S4000000x5 ![] bcast_S_S4000000x5 (constant S_ .f32 0x3F800000#32))
    (Host.log (Host.divf b (subf (broadcastInDim S4000000x5 ![] bcast_S_S4000000x5 (constant S_ .f32 0x3F800000#32)) b)))

/-- The result: the argument's first ten columns, then the five transformed ratios. -/
def refOut (x : FVec F S4000000x16 .f32) : FVec F S4000000x15 .f32 :=
  concatenate S4000000x15 1
    [⟨S4000000x10, extractStridedSlice S4000000x10 ![0, 0] x slices_S4000000x16_S4000000x10_0_0⟩,
     ⟨S4000000x5, logOdds (clamped (ratios (weights (gathered x))))⟩]
    concatenates_S4000000x10_S4000000x5_S4000000x15_d1

/-! ## The fold of the operations at the result and at the argument -/

attribute [local irreducible] Host.gather Host.reduceAdd concatenate extractStridedSlice shapeCast broadcastInDim
  Host.exp Host.log Host.divf in
set_option maxHeartbeats 1000000 in
/-- The fold read at the result buffer: each operation's result at its own buffer is its function of its operands', every
    other buffer is kept; the layout and arithmetic operations stay folded while the two sides are compared. -/
theorem out_eq (V : Valuation τ sig (Elt F)) :
    after ops V (main_v39 : DevRef τ sig) = refOut (V (main_arg0 : DevRef τ sig)) := by
  after_results_simp
  unfold refOut logOdds clamped ratios weights gathered col0 col1 col2 col3 asCol colTable
  rfl

theorem arg0_eq (V : Valuation τ sig (Elt F)) :
    after ops V (main_arg0 : DevRef τ sig) = V (main_arg0 : DevRef τ sig) := by
  after_results_simp

/-- Every weakly fair execution of the program terminates with the result buffer at `refOut` of the argument and the
    argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v39).trans (out_eq _), (h c main_arg0).trans (arg0_eq _)⟩)
    (run_seq scopedRefs_eq scopedSems_eq defs main (fun _ => ops) main_eq (fun _ => ops_sub) m ρ)

end Cert.ReferenceIdeal.Hand

end
-- ==== Proof.RefValue.lean ====
/-
  The reference's result is the row-wise function `G` of the argument, on the extended reals.
  Read at `(r, c)`: for `c < 10` the final concatenation reads the argument's slice, which is the argument at `(r, c)`;
  for `c ≥ 10` it reads the log-odds of the clamp of ratio `c - 10` of row `r`; the ratios are read column by column off
  the weights; a weight at `(r, j)` is the exponential of the gathered entry over the row's sum (the host's sum starts from
  the word of zero, which denotes `0`); and the gather reads column `10 + j` of the argument, because the column table holds
  `10, 11, 12, 13`, all inside the sixteen columns.
-/
import proofs.«161381_j11544872092147_2_alg».proof.Proof.RefRun
import proofs.«161381_j11544872092147_2_alg».proof.Proof.RowSpec
import proofs.«161381_j11544872092147_2_alg».proof.Proof.LibColumns
import Idealize.ShloMosaic.Lib.ValueLayout

noncomputable section

open scoped BigOperators

namespace Cert.ReferenceIdeal.RefValue

open Cert.ReferenceIdeal Cert.ReferenceIdeal.Gen Cert.ReferenceIdeal.Hand Idealize.ShloMosaic Idealize.ShloMosaic.ValueIdx
open Cert.RowSpec Cert.LibColumns

/-! ## The gather -/

/-- The column table at position `k` holds `10 + k`. -/
theorem colTable_apply (k : Fin 4) : min (colTable (ix2 k 0)).toInt.toNat 15 = 10 + k.val := by
  have e : colTable (ix2 k 0) = lit0 k := by
    unfold colTable
    refine (broadcastInDim_vec_col ![0] rfl bcast_S4_S4x1_0 _ k).trans ?_
    show Scalar.select (0#1) _ (lit0 (S4.rowMajor (ix1 k))) = lit0 k
    rw [select_zero]
    refine congrArg lit0 (Fin.ext ?_)
    exact Shape.rowMajor_val_one (ix1 k)
  rw [e]
  match k with
  | ⟨0, _⟩ => rfl
  | ⟨1, _⟩ => rfl
  | ⟨2, _⟩ => rfl
  | ⟨3, _⟩ => rfl

/-- The gather's dimension numbers, under a short name. -/
abbrev gd : GatherDims S4000000x16 S4x1 S4000000x4 := gather_S4000000x16_S4x1_S4000000x4_0_1_n_n_1_1_40000001

/-- The gather at `(r, k)` reads the operand in row `r`, at the column the index table names at position `k`, clamped
    into the sixteen columns. -/
theorem gather_apply (x : FVec Ideal S4000000x16 .f32) (idx : IVec S4x1 32) (r : Fin 4000000) (k : Fin 4) (c : Fin 16)
    (hc : c.val = min (idx (ix2 k 0)).toInt.toNat 15) :
    Host.gather gd x idx (ix2 r k) = x (ix2 r c) := by
  unfold Host.gather
  refine congrArg x ?_
  funext a
  apply Fin.ext
  match a with
  | ⟨0, _⟩ =>
    show GatherDims.start gd (ix2 r k) idx (0 : Fin 2) + GatherDims.batchCoord gd (ix2 r k) (0 : Fin 2)
      + GatherDims.offCoord gd (ix2 r k) (0 : Fin 2) = r.val
    rw [GatherDims.batchCoord_eq_zero _ _ _ List.not_mem_nil]
    unfold GatherDims.start GatherDims.offCoord
    rw [dif_neg (by decide), dif_pos (by decide)]
    show 0 + 0 + r.val = r.val
    omega
  | ⟨1, _⟩ =>
    show GatherDims.start gd (ix2 r k) idx (1 : Fin 2) + GatherDims.batchCoord gd (ix2 r k) (1 : Fin 2)
      + GatherDims.offCoord gd (ix2 r k) (1 : Fin 2) = c.val
    rw [GatherDims.batchCoord_eq_zero _ _ _ List.not_mem_nil, GatherDims.offCoord_eq_zero _ _ _ (by decide)]
    unfold GatherDims.start
    rw [dif_pos (by decide), hc]
    have hsi : GatherDims.siIdx gd (ix2 r k)
        ⟨List.idxOf (1 : Fin 2) gd.startIndexMap,
          List.idxOf_lt_length_iff.2 (by decide)⟩ = ix2 k 0 := by
      funext b; refine Fin.ext ?_
      match b with
      | ⟨0, _⟩ => rfl
      | ⟨1, _⟩ => rfl
    rw [hsi]
    rfl

theorem gathered_apply (x : FVec Ideal S4000000x16 .f32) (r : Fin 4000000) (j : Fin 4) :
    gathered x (ix2 r j) = logits (fun k => x (ix2 r k)) j :=
  gather_apply x colTable r j ⟨10 + j.val, by omega⟩ (colTable_apply j).symm

/-! ## The weights -/

theorem zero_word : Ideal.ofBits .f32 0x00000000#32 = 0 := Ideal.ofBits_zero_f32

/-- The host's pointwise operations on the extended reals, at an index. -/
theorem hdivf_apply {s : Shape} (a b : FVec Ideal s .f32) (i : s.Idx) : Host.divf a b i = Ideal.div (a i) (b i) := rfl
theorem hexp_apply {s : Shape} (a : FVec Ideal s .f32) (i : s.Idx) : Host.exp a i = Ideal.exp (a i) := rfl
theorem hlog_apply {s : Shape} (a : FVec Ideal s .f32) (i : s.Idx) : Host.log a i = Ideal.log (a i) := rfl

/-- The row-sum shape fact in the lane-reduction form. -/
theorem reduces_rows : S4000000x4.Reduces [1] S4000000 := by decide

/-- The denominator of the weights: the row sum of the exponentials, repeated along the row. -/
theorem rowsum_apply (e : FVec Ideal S4000000x4 .f32) (r : Fin 4000000) (j : Fin 4) :
    broadcastInDim S4000000x4 ![0, 1] bcast_S4000000x1_S4000000x4_0_1
      (broadcastInDim S4000000x1 ![0] bcast_S4000000_S4000000x1_0
        (Host.reduceAdd e (constant (F := Ideal) S_ .f32 0x00000000#32) reducesTo_S4000000x4_S4000000_d1 h_S_)) (ix2 r j)
      = ∑ k : Fin 4, e (ix2 r k) := by
  refine (broadcastInDim_col_mat ![0, 1] rfl rfl bcast_S4000000x1_S4000000x4_0_1 _ r j).trans ?_
  refine (broadcastInDim_vec_col ![0] rfl bcast_S4000000_S4000000x1_0 _ r).trans ?_
  refine (hostReduceAdd_rows e (constant (F := Ideal) S_ .f32 0x00000000#32) reducesTo_S4000000x4_S4000000_d1 h_S_
    reduces_rows r).trans ?_
  rw [constant_apply, zero_word, zero_add]

theorem weights_apply (g : FVec Ideal S4000000x4 .f32) (r : Fin 4000000) (j : Fin 4) :
    weights g (ix2 r j) = soft (fun k => g (ix2 r k)) j := by
  unfold weights soft
  rw [hdivf_apply, hexp_apply, rowsum_apply]
  refine congrArg (Ideal.div (Ideal.exp (g (ix2 r j)))) ?_
  exact Finset.sum_congr rfl fun k _ => hexp_apply g (ix2 r k)

/-! ## The ratios -/

theorem col0_apply (s : FVec Ideal S4000000x4 .f32) (r : Fin 4000000) : col0 s (ix1 r) = s (ix2 r 0) :=
  (shapeCast_col_vec _ shapeCasts_S4000000x1_S4000000 r).trans
    (slice2_axis1_apply 0 s slices_S4000000x4_S4000000x1_0_0 r 0 0 rfl)
theorem col1_apply (s : FVec Ideal S4000000x4 .f32) (r : Fin 4000000) : col1 s (ix1 r) = s (ix2 r 1) :=
  (shapeCast_col_vec _ shapeCasts_S4000000x1_S4000000 r).trans
    (slice2_axis1_apply 1 s slices_S4000000x4_S4000000x1_0_1 r 0 1 rfl)
theorem col2_apply (s : FVec Ideal S4000000x4 .f32) (r : Fin 4000000) : col2 s (ix1 r) = s (ix2 r 2) :=
  (shapeCast_col_vec _ shapeCasts_S4000000x1_S4000000 r).trans
    (slice2_axis1_apply 2 s slices_S4000000x4_S4000000x1_0_2 r 0 2 rfl)
theorem col3_apply (s : FVec Ideal S4000000x4 .f32) (r : Fin 4000000) : col3 s (ix1 r) = s (ix2 r 3) :=
  (shapeCast_col_vec _ shapeCasts_S4000000x1_S4000000 r).trans
    (slice2_axis1_apply 3 s slices_S4000000x4_S4000000x1_0_3 r 0 3 rfl)

theorem asCol_apply (v : FVec Ideal S4000000 .f32) (r : Fin 4000000) : asCol v (ix2 r 0) = v (ix1 r) :=
  broadcastInDim_vec_col ![0] rfl bcast_S4000000_S4000000x1_0 v r

theorem ratios_apply (s : FVec Ideal S4000000x4 .f32) (r : Fin 4000000) (k : Fin 5) :
    ratios s (ix2 r k) = ratio (fun j => s (ix2 r j)) k := by
  unfold ratios
  rw [concat5_apply]
  match k with
  | ⟨0, _⟩ =>
    show asCol (col0 s) (ix2 r 0) = s (ix2 r 0)
    rw [asCol_apply, col0_apply]
  | ⟨1, _⟩ =>
    show asCol (col1 s) (ix2 r 0) = s (ix2 r 1)
    rw [asCol_apply, col1_apply]
  | ⟨2, _⟩ =>
    show asCol (Host.divf (col1 s) (addf (col1 s) (col0 s))) (ix2 r 0) = Ideal.div (s (ix2 r 1)) (s (ix2 r 1) + s (ix2 r 0))
    rw [asCol_apply]
    show Ideal.div (col1 s (ix1 r)) (col1 s (ix1 r) + col0 s (ix1 r)) = _
    rw [col1_apply, col0_apply]
  | ⟨3, _⟩ =>
    show asCol (Host.divf (col1 s) (addf (addf (col1 s) (col2 s)) (col3 s))) (ix2 r 0)
      = Ideal.div (s (ix2 r 1)) (s (ix2 r 1) + s (ix2 r 2) + s (ix2 r 3))
    rw [asCol_apply]
    show Ideal.div (col1 s (ix1 r)) (col1 s (ix1 r) + col2 s (ix1 r) + col3 s (ix1 r)) = _
    rw [col1_apply, col2_apply, col3_apply]
  | ⟨4, _⟩ =>
    show asCol (Host.divf (col3 s) (addf (col3 s) (col2 s))) (ix2 r 0) = Ideal.div (s (ix2 r 3)) (s (ix2 r 3) + s (ix2 r 2))
    rw [asCol_apply]
    show Ideal.div (col3 s (ix1 r)) (col3 s (ix1 r) + col2 s (ix1 r)) = _
    rw [col3_apply, col2_apply]

/-! ## Clamp and log-odds -/

theorem splat_apply (w : BitVec 32) (i : S4000000x5.Idx) :
    broadcastInDim S4000000x5 ![] bcast_S_S4000000x5 (constant (F := Ideal) S_ .f32 w) i = Ideal.ofBits .f32 w :=
  broadcastInDim_scalar ![] bcast_S_S4000000x5 _ i

theorem logOdds_clamped_apply (a : FVec Ideal S4000000x5 .f32) (i : S4000000x5.Idx) :
    logOdds (clamped a) i = logit (a i) := by
  show Ideal.ofBits .f32 0x3F800000#32 * Ideal.log (Ideal.div (clamped a i) (Ideal.ofBits .f32 0x3F800000#32 - clamped a i)) = _
    <;> skip
  have hc : clamped a i = min hi (max lo (a i)) := by
    show min (broadcastInDim S4000000x5 ![] bcast_S_S4000000x5 (constant (F := Ideal) S_ .f32 0x3F7FFFEF#32) i)
      (max (broadcastInDim S4000000x5 ![] bcast_S_S4000000x5 (constant (F := Ideal) S_ .f32 0x358637BD#32) i) (a i)) = _
    rw [splat_apply, splat_apply]
    rfl
  rw [hc]
  rfl

/-! ## The whole result -/

theorem refOut_eq (x : FVec Ideal S4000000x16 .f32) : refOut x = G x := by
  funext i
  obtain ⟨r, c, rfl⟩ : ∃ (r : Fin 4000000) (c : Fin 15), i = ix2 r c := ⟨i 0, i 1, eq_ix2 i⟩
  rw [G_ix2]
  unfold refOut
  by_cases h : c.val < 10
  · rw [rowOut_lt _ _ h]
    refine (concat_10_5_left _ _ concatenates_S4000000x10_S4000000x5_S4000000x15_d1 r c ⟨c.val, h⟩ rfl).trans ?_
    exact slice2_axis1_apply 0 x slices_S4000000x16_S4000000x10_0_0 r ⟨c.val, h⟩ ⟨c.val, by omega⟩ (by simp)
  · rw [rowOut_ge _ _ h]
    refine (concat_10_5_right _ _ concatenates_S4000000x10_S4000000x5_S4000000x15_d1 r c ⟨c.val - 10, by omega⟩
      (by show c.val - 10 + 10 = c.val; omega)).trans ?_
    rw [logOdds_clamped_apply, ratios_apply]
    refine congrArg (fun s => logit (ratio s ⟨c.val - 10, by omega⟩)) ?_
    funext j
    rw [weights_apply]
    refine congrArg (fun z => soft z j) ?_
    funext k
    exact gathered_apply x r k

end Cert.ReferenceIdeal.RefValue

end
-- ==== Proof.lean ====
/-
  The kernel and its reference compute the same array on the extended reals.

  Both take `x` of 4,000,000 rows and 16 columns and return 4,000,000 rows and 15 columns, each output row a function of
  the same input row only: columns 0..9 are copied; columns 10..13 are four logits `z`, turned into weights
  `w_j = exp z_j / (exp z_0 + exp z_1 + exp z_2 + exp z_3)`; from the weights five ratios are formed,
  `w_0, w_1, w_1 / (w_1 + w_0), w_1 / ((w_1 + w_2) + w_3), w_3 / (w_3 + w_2)`; each ratio `a` is clamped into `[lo, hi]` and
  mapped to `1 · log (a / (1 - a))`. This row-wise function is `Cert.RowSpec.G`.

  The kernel works on 500 blocks of 8000 rows; block `t` of its result is block `t` of `G x`, and the blocks cover the
  array (Proof/KernelPayload, KernelBlock, KernelArray). It writes the first two ratios as `w_0 / 1` and `w_1 / 1`, which on
  the extended reals are `w_0` and `w_1` (`x · 1⁻¹ = x` for every `x`, infinite or not), sums a row's four exponentials by a
  lane reduction where the reference uses the host's sum from zero (the same sum), and reads the four logit columns by a
  slice where the reference gathers columns 10, 11, 12, 13 by a table. The reference's straight-line run and its value are
  Proof/RefRun and Proof/RefValue. No step uses that the inputs are finite: the two laws used
  (`x / 1 = x` and `0 + s = s`) hold on all extended reals, so the precondition is never opened.

  The word-level kernel and the idealized kernel differ by no rewrite (the ideal pass changed nothing), so the
  idealization conjunct is `True`; the three frame conjuncts are the generated frames of the two kernels and the reference's
  run with its result dropped.
-/
import proofs.«161381_j11544872092147_2_alg».proof.Defs
import proofs.«161381_j11544872092147_2_alg».proof.Proof.Gen.Kernel
import proofs.«161381_j11544872092147_2_alg».proof.Proof.Gen.Kernel.Skeleton
import proofs.«161381_j11544872092147_2_alg».proof.Proof.Gen.Kernel.Launch
import proofs.«161381_j11544872092147_2_alg».proof.Proof.Gen.Kernel.Points
import proofs.«161381_j11544872092147_2_alg».proof.Proof.Gen.Kernel.Frame
import proofs.«161381_j11544872092147_2_alg».proof.Proof.Gen.KernelIdeal
import proofs.«161381_j11544872092147_2_alg».proof.Proof.Gen.KernelIdeal.Skeleton
import proofs.«161381_j11544872092147_2_alg».proof.Proof.Gen.KernelIdeal.Launch
import proofs.«161381_j11544872092147_2_alg».proof.Proof.Gen.KernelIdeal.Points
import proofs.«161381_j11544872092147_2_alg».proof.Proof.Gen.KernelIdeal.Frame
import proofs.«161381_j11544872092147_2_alg».proof.Proof.Gen.KernelIdeal.Value
import proofs.«161381_j11544872092147_2_alg».proof.Proof.Gen.ReferenceIdeal
import proofs.«161381_j11544872092147_2_alg».proof.Proof.Gen.Pre_finite_inputs
import proofs.«161381_j11544872092147_2_alg».proof.Proof.KernelArray
import proofs.«161381_j11544872092147_2_alg».proof.Proof.RefValue
import Idealize.ShloMosaic.Adequacy
import Idealize.ShloMosaic.Init

noncomputable section

namespace Cert.Proof

open Idealize.ShloMosaic Idealize.SL.Sem

/-- The word-level kernel runs and leaves its argument as it was: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its argument as it was: its run, with the statement about the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- On the extended reals the kernel's result array ends at `G` of its argument, the reference's at `G` of its own, and
    the arguments agree. -/
theorem algebraic : Cert.algebraic_KernelIdeal_ReferenceIdeal := by
  intro m ρ m' ρ' _ hagree
  refine ⟨fun c => Cert.RowSpec.G (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Hand.run (F := Ideal) m' ρ')
  rw [Cert.ReferenceIdeal.RefValue.refOut_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
